-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x4096 : Shape := ⟨3, ![8, 512, 4096]⟩
abbrev S4096x4096 : Shape := ⟨2, ![4096, 4096]⟩
abbrev S_ : Shape := ⟨0, ![]⟩

class Facts : Prop where
  bcast_S_S8x512x4096 : S_.BroadcastsInDim S8x512x4096 (![] : Fin 0 → Fin S8x512x4096.rank)
  reducesTo_S8x512x4096_S_d0_1_2 : S8x512x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8x512x4096 .f32) (main_arg1 : FVec F S4096x4096 .f32) : IVec S_ 1 :=
  let main_v0 : FVec F S8x512x4096 .f32 := Host.absf main_arg0
  let main_cst : FVec F S_ .f32 := constant S_ .f32 0x7F800000#32
  let main_v1 : FVec F S8x512x4096 .f32 := broadcastInDim S8x512x4096 ![] bcast_S_S8x512x4096 main_cst
  let main_v2 : IVec S8x512x4096 1 := cmpf .olt main_v0 main_v1
  let main_c : IVec S_ 1 := constantI S_ 1 1#1
  let main_v3 : IVec S_ 1 := (fun x v => Host.reduce IntOp.andi x v reducesTo_S8x512x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8x512x4096 : Shape := ⟨3, ![8, 512, 4096]⟩
abbrev S4096x4096 : Shape := ⟨2, ![4096, 4096]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8x512x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S8x512x4096, .f32⟩
  | .local _ .vmem, ⟨0, _⟩ => ⟨S1024x4096, .f32⟩
  | .local _ .vmem, ⟨1, _⟩ => ⟨S1024x4096, .f32⟩
  | .local _ .vmem, ⟨2, _⟩ => ⟨S512x4096, .f32⟩
  | .local _ .vmem, ⟨3, _⟩ => ⟨S512x4096, .f32⟩
  | .local _ .vmem, ⟨4, _⟩ => ⟨S1024x512, .f32⟩
  | .local _ .vmem, ⟨5, _⟩ => ⟨S1024x512, .f32⟩
  | _, _ => ⟨S8x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S8x512x4096_S4096x4096 : S8x512x4096.ShapeCasts S4096x4096
  shapeCasts_S4096x4096_S8x512x4096 : S4096x4096.ShapeCasts S8x512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  inb_S1024x512_S1024x512_0_0 : ∀ a, (![0, 0] : Fin 2 → Nat) a + S1024x512.size a ≤ S1024x512.size a
  h_S1024x512 : 0 < S1024x512.numel
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .f32 = 32 ∨ (Rect.block (s := S4096x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x4096.size a
  hwx0_2 : ∀ i : grid0.Coords, EltTy.bits .f32 = 32 ∨ (Rect.block (s := S4096x4096) S1024x512.size (cc0_transform_2 i) (hinb0_2 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_call0_v0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x512x4096 : Shape := ⟨3, ![8, 512, 4096]⟩
abbrev S4096x4096 : Shape := ⟨2, ![4096, 4096]⟩
abbrev S256x1024 : Shape := ⟨2, ![256, 1024]⟩
abbrev S512x1024 : Shape := ⟨2, ![512, 1024]⟩
abbrev S256x512 : Shape := ⟨2, ![256, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x512x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S8x512x4096, .f32⟩
  | .local _ .vmem, ⟨0, _⟩ => ⟨S256x1024, .f32⟩
  | .local _ .vmem, ⟨1, _⟩ => ⟨S256x1024, .f32⟩
  | .local _ .vmem, ⟨2, _⟩ => ⟨S512x1024, .f32⟩
  | .local _ .vmem, ⟨3, _⟩ => ⟨S512x1024, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S8x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 8, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S8x512x4096_S4096x4096 : S8x512x4096.ShapeCasts S4096x4096
  shapeCasts_S4096x4096_S8x512x4096 : S4096x4096.ShapeCasts S8x512x4096
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S512x1024_S512x1024_0_0 : ∀ a, (![0, 0] : Fin 2 → Nat) a + S512x1024.size a ≤ S512x1024.size a
  h_S512x1024 : 0 < S512x1024.numel
  dot_S256x1024_S512x1024_S256x512_1_1_0_0_n_n_wf : DotDims.WF S256x1024 S512x1024 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x4096.size a
  hwx0_0 : ∀ i : grid0.Coords, EltTy.bits .f32 = 32 ∨ (Rect.block (s := S4096x4096) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S4096x4096.size a
  hwx0_2 : ∀ i : grid0.Coords, EltTy.bits .f32 = 32 ∨ (Rect.block (s := S4096x4096) S256x512.size (cc0_transform_2 i) (hinb0_2 i)).WholeWords (EltTy.packing .f32)

variable [Facts₀]

def dot_S256x1024_S512x1024_S256x512_1_1_0_0_n_n : DotDims S256x1024 S512x1024 S256x512 where
  lhsContracting := [1]
  rhsContracting := [1]
  lhsNonContracting := [0]
  rhsNonContracting := [0]
  lhsBatch := []
  rhsBatch := []
  wf := dot_S256x1024_S512x1024_S256x512_1_1_0_0_n_n_wf

abbrev win0_0 : Pipeline.Window sig grid0 :=
  Pipeline.Window.ofSpec (Memref.whole main_call0_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== Proof.LibBlockSum.lean ====
/-
  A finite sum taken block by block.

  A sum over d < N can be accumulated in consecutive blocks: start from nothing, and at each step add the sum of
  the next b terms.  After the blocks that make up the first a terms the accumulator holds the a-th partial sum,
  and once the blocks have exhausted the range it holds the whole sum.  Only that addition is associative and
  commutative is used, so this holds in any commutative monoid — in particular over the extended reals, where no
  finiteness of the terms is needed.

  To speak of the a-th partial sum for every natural a, the summand is extended by zero beyond N.
-/
import Mathlib.Algebra.BigOperators.Fin
import Mathlib.Algebra.BigOperators.Intervals

open scoped BigOperators

namespace Cert.BlockSum

variable {M : Type*} [AddCommMonoid M]

/-- A summand on the indices below N, extended by zero to every natural number. -/
def ext0 {N : ℕ} (f : Fin N → M) (d : ℕ) : M := if h : d < N then f ⟨d, h⟩ else 0

theorem ext0_of_lt {N : ℕ} (f : Fin N → M) (d : ℕ) (h : d < N) : ext0 f d = f ⟨d, h⟩ := dif_pos h

/-- The sum of the first n terms. -/
def partialSum {N : ℕ} (f : Fin N → M) (n : ℕ) : M := ∑ d ∈ Finset.range n, ext0 f d

theorem partialSum_zero {N : ℕ} (f : Fin N → M) : partialSum f 0 = 0 := Finset.sum_range_zero _

/-- The N-th partial sum is the whole sum. -/
theorem partialSum_full {N : ℕ} (f : Fin N → M) : partialSum f N = ∑ d : Fin N, f d := by
  unfold partialSum
  rw [← Fin.sum_univ_eq_sum_range (ext0 f) N]
  exact Finset.sum_congr rfl fun d _ => ext0_of_lt f d.val d.isLt

/-- The block of b terms starting at a, as a sum over k < b. -/
theorem block_eq {N : ℕ} (f : Fin N → M) (a b : ℕ) (h : a + b ≤ N) :
    ∑ k : Fin b, f ⟨a + k.val, Nat.lt_of_lt_of_le (Nat.add_lt_add_left k.isLt a) h⟩
      = ∑ k ∈ Finset.range b, ext0 f (a + k) := by
  rw [← Fin.sum_univ_eq_sum_range (fun k => ext0 f (a + k)) b]
  exact Finset.sum_congr rfl fun k _ => (ext0_of_lt f (a + k.val) _).symm

/-- Adding the next block of b terms to the a-th partial sum gives the (a + b)-th. -/
theorem partialSum_add_block {N : ℕ} (f : Fin N → M) (a b : ℕ) (h : a + b ≤ N) :
    partialSum f a + ∑ k : Fin b, f ⟨a + k.val, Nat.lt_of_lt_of_le (Nat.add_lt_add_left k.isLt a) h⟩
      = partialSum f (a + b) := by
  rw [block_eq f a b h]
  unfold partialSum
  exact (Finset.sum_range_add (ext0 f) a b).symm

end Cert.BlockSum
-- ==== Proof.Spec.lean ====
/-
  What both programs compute: a linear layer  y = x · Wᵀ  with the weight stored as (out, in).

  With the batch and sequence axes of x merged, x is a 4096×4096 matrix A and the weight a 4096×4096 matrix B, and
      y(r, s) = Σ_{k < 4096} A(r, k) · B(s, k).
  One program takes this sum in one piece.  The other cuts the contracted axis into four stretches of 1024 and keeps a
  running total: after the stretches that make up the first n terms the total is the n-th partial sum, and after the
  fourth stretch it is y(r, s).  Only associativity and commutativity of addition are used, so this holds for all
  extended reals and no finiteness of the inputs is needed.
-/
import proofs.«162733_g2000006501037958_pallasbulk_882_13_alg».proof.Proof.LibBlockSum
import Idealize.ShloMosaic.Lib.ValueIdx

noncomputable section

open scoped BigOperators

namespace Cert.LinearSpec

open Idealize.ShloMosaic Idealize.ShloMosaic.ValueIdx

/-- The shape of both matrices and of the product. -/
abbrev SQ : Shape := ⟨2, ![4096, 4096]⟩
/-- The shape of the layer's input and output: batch 8, sequence 512, features 4096. -/
abbrev SX : Shape := ⟨3, ![8, 512, 4096]⟩

/-- The k-th term of entry (r, s): A(r, k) · B(s, k). -/
def term (A B : SQ.Idx → EReal) (r s : Fin 4096) : Fin 4096 → EReal := fun k => A (ix2 r k) * B (ix2 s k)

/-- Entry (r, s) of A · Bᵀ. -/
def entry (A B : SQ.Idx → EReal) (r s : Fin 4096) : EReal := ∑ k : Fin 4096, term A B r s k

/-- The product A · Bᵀ as one function of the two matrices. -/
def rowsDot (A B : SQ.Idx → EReal) : SQ.Idx → EReal := fun i => entry A B (i 0) (i 1)

theorem rowsDot_apply (A B : SQ.Idx → EReal) (r s : Fin 4096) : rowsDot A B (ix2 r s) = entry A B r s := rfl

/-- The sum of the first n terms of entry (r, s). -/
def partialEntry (A B : SQ.Idx → EReal) (r s : Fin 4096) (n : ℕ) : EReal := Cert.BlockSum.partialSum (term A B r s) n

/-- Before any stretch the running total is zero. -/
theorem partialEntry_zero (A B : SQ.Idx → EReal) (r s : Fin 4096) : partialEntry A B r s 0 = 0 :=
  Cert.BlockSum.partialSum_zero _

/-- Adding the stretch of 1024 terms that starts at position a moves the running total from a to a + 1024. -/
theorem partialEntry_step (A B : SQ.Idx → EReal) (r s : Fin 4096) (a : ℕ) (h : a + 1024 ≤ 4096) :
    partialEntry A B r s a
        + ∑ c : Fin 1024, A (ix2 r ⟨a + c.val, Nat.lt_of_lt_of_le (Nat.add_lt_add_left c.isLt a) h⟩)
            * B (ix2 s ⟨a + c.val, Nat.lt_of_lt_of_le (Nat.add_lt_add_left c.isLt a) h⟩)
      = partialEntry A B r s (a + 1024) :=
  Cert.BlockSum.partialSum_add_block (term A B r s) a 1024 h

/-- After all 4096 terms the running total is the entry. -/
theorem partialEntry_full (A B : SQ.Idx → EReal) (r s : Fin 4096) : partialEntry A B r s 4096 = entry A B r s :=
  Cert.BlockSum.partialSum_full _

/-- The layer: merge the leading axes of x, multiply by the transposed weight, split the leading axis again. -/
def layer (h1 : SX.ShapeCasts SQ) (h2 : SQ.ShapeCasts SX) (X : SX.Idx → EReal) (W : SQ.Idx → EReal) : SX.Idx → EReal :=
  shapeCast SX (rowsDot (shapeCast SQ X h1) W) h2

end Cert.LinearSpec

end
-- ==== Proof.LibRowsDot.lean ====
/-
  Rows against rows: the product of an M×K matrix with an N×K matrix, both contracted on their last axis.

  Entry (a, b) of such a product is the accumulator's entry plus Σ_c A(a, c) · B(b, c) — row a of the left operand
  against row b of the right one.  Read at the exact values (floats as extended reals), for the vector unit's product
  into an arbitrary accumulator and into the zero accumulator, where the sum stands alone.
-/
import Idealize.ShloMosaic.Lib.ValueIdx
import Idealize.ShloMosaic.PureOps.Ideal.Laws

noncomputable section

open scoped BigOperators

namespace Cert.RowsDot

open Idealize.ShloMosaic Idealize.ShloMosaic.ValueIdx

variable {m k n : Nat} {φ₁ φ₂ : FTy}

/-- The dimension numbers "contract the last axis of both operands", over any evidence of their well-formedness. -/
abbrev dims (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

/-- The left operand is read at (a, c): its row is the output's row, its column the contracted position. -/
theorem lhsIdx_eq (w : DotDims.WF ⟨2, ![m, k]⟩ ⟨2, ![n, k]⟩ ⟨2, ![m, n]⟩ [1] [1] [0] [0] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

/-- The right operand is read at (b, c): its row is the output's column, its column the contracted position. -/
theorem rhsIdx_eq (w : DotDims.WF ⟨2, ![m, k]⟩ ⟨2, ![n, k]⟩ ⟨2, ![m, n]⟩ [1] [1] [0] [0] [] [])
    (a : Fin m) (b : Fin n) (c : Fin k) :
    (dims w).rhsIdx (ix2 a b) ((contrEquiv1 (dims w) k rfl rfl).symm c) = ix2 b c := by
  have c2 := contrEquiv1_symm_val (dims w) k rfl rfl c
  funext ax; apply Fin.ext
  match ax with
  | ⟨0, _⟩ => simp [DotDims.rhsIdx]; rfl
  | ⟨1, _⟩ => simp [DotDims.rhsIdx]; exact c2

/-- Into any accumulator: entry (a, b) is the accumulator's plus Σ_c A(a, c) · B(b, c). -/
theorem matmul_apply (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (acc : FVec Ideal ⟨2, ![m, n]⟩ .f32) (a : Fin m) (b : Fin n) :
    FloatOps.matmul (dims w) prec A B acc (ix2 a b) = acc (ix2 a b) + ∑ c : Fin k, A (ix2 a c) * B (ix2 b c) := by
  rw [Ideal.matmul_apply, ← Equiv.sum_comp (contrEquiv1 (dims w) k rfl rfl).symm]
  refine congrArg (acc (ix2 a b) + ·) (Finset.sum_congr rfl fun c _ => ?_)
  rw [lhsIdx_eq, rhsIdx_eq]

/-- Into the zero accumulator: entry (a, b) is Σ_c A(a, c) · B(b, c). -/
theorem matmul_zero_apply (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (dims w) prec A B (constant (F := Ideal) ⟨2, ![m, n]⟩ .f32 0x00000000#32) (ix2 a b)
      = ∑ c : Fin k, A (ix2 a c) * B (ix2 b c) := by
  rw [Ideal.matmul_constant_zero_apply, ← Equiv.sum_comp (contrEquiv1 (dims w) k rfl rfl).symm]
  refine Finset.sum_congr rfl fun c _ => ?_
  rw [lhsIdx_eq, rhsIdx_eq]

end Cert.RowsDot

end
-- ==== Proof.KernelValue.lean ====
/-
  The one-piece program, read as values.

  Its grid has 4 × 8 points.  Point (i, j) loads rows 1024·i … 1024·i + 1023 of A (all 4096 columns) and rows
  512·j … 512·j + 511 of B, and writes the 1024 × 512 block (i, j) of the output: entry (p, q) of that block is
  Σ_k A(1024·i + p, k) · B(512·j + q, k), which is entry (1024·i + p, 512·j + q) of A · Bᵀ.  The 32 blocks tile the
  output, so after the run the output array is A · Bᵀ.  Around the grid the program merges the leading axes of x
  into A beforehand and splits the leading axis of the product afterwards.
-/
import proofs.«162733_g2000006501037958_pallasbulk_882_13_alg».proof.Proof.Gen.KernelIdeal.Frame
import proofs.«162733_g2000006501037958_pallasbulk_882_13_alg».proof.Proof.Spec
import proofs.«162733_g2000006501037958_pallasbulk_882_13_alg».proof.Proof.LibRowsDot
import Idealize.ShloMosaic.Lib.Pipeline.Value
import Idealize.ShloMosaic.Lib.StableHlo.Run
import Idealize.ShloMosaic.Lib.Tactic

noncomputable section

open scoped BigOperators

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx
open Cert.LinearSpec

variable (m : (ℓ : Loc nD τ sig) → Buf (Elt Ideal) ℓ) (ρ : Dev nD → PrngReg)

theorem hz : (![0, 0] : Fin 2 → Nat) = fun _ => 0 := funext fun a => by fin_cases a <;> rfl

/-- Entry (p, q) of what a point stores: row p of its block of A against row q of its block of B. -/
theorem pay_apply (x0 : Vec Ideal S1024x4096 .f32) (x1 : Vec Ideal S512x4096 .f32) (p : Fin 1024) (q : Fin 512) :
    k0_pay1 (F := Ideal) x0 x1 (ix2 p q) = ∑ k : Fin 4096, x0 (ix2 p k) * x1 (ix2 q k) := by
  unfold k0_pay1
  show FloatOps.matmul (Cert.RowsDot.dims Facts₀.dot_S1024x4096_S512x4096_S1024x512_1_1_0_0_n_n_wf) none
      (shapeCast S1024x4096 x0 Facts₀.shapeCasts_S1024x4096_S1024x4096) x1 (constant (F := Ideal) S1024x512 .f32 0x00000000#32) (ix2 p q) = _
  rw [shapeCast_self]
  exact Cert.RowsDot.matmul_zero_apply _ none x0 x1 p q

/-- Where each window's block sits at a point, relative to the output's block (i, j): A's block is row block i,
    B's block is row block j, and both span all columns. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 3 ∧ win0_2.index t (1 : Fin 2) ≤ 7 :=
  (by decide +kernel : ∀ t : Fin grid0.N, _)

/-- Every output block (i, j) is some point's. -/
theorem idx_onto : ∀ (q0 : Fin 4) (q1 : Fin 8), ∃ t : Fin cfg0.N, win0_2.index t = ![q0.val, q1.val] :=
  (by decide +kernel : ∀ (q0 : Fin 4) (q1 : Fin 8), ∃ t : Fin grid0.N, win0_2.index t = ![q0.val, q1.val])

/-- What a point writes back is its block of A · Bᵀ, A and B being the two arrays as the grid finds them. -/
theorem flushed_eq (c : Dev nD) (t : Fin cfg0.N) :
    (dats m 0 c).flushed 2 t
      = ((cfg0.win 2).blk t).view.read (Elt Ideal) (rowsDot (V m c main_call0_v0) (V m c main_arg1)) := by
  show (cfg0.win 2).cut (grid0.coords t) ((dats m 0 c).after 2 t) = _
  rw [after0_2]
  unfold out0_2
  rw [View.canon_unit_zero hz]
  simp only [View.ld_unit_zero (S := S1024x4096) hz, View.ld_unit_zero (S := S512x4096) hz]
  obtain ⟨e0, e1, e2, e3, b0, b1⟩ := idx_facts t
  funext j
  obtain ⟨p, q, rfl⟩ : ∃ (p : Fin 1024) (q : Fin 512), j = ix2 p q := ⟨j 0, j 1, eq_ix2 j⟩
  show k0_pay1 (F := Ideal) (iblk m c 0 t) (iblk m c 1 t) (ix2 p q)
    = rowsDot (V m c main_call0_v0) (V m c main_arg1) (((cfg0.win 2).blk t).view.emb (ix2 p q))
  rw [pay_apply]
  have hrow : ((cfg0.win 2).blk t).view.emb (ix2 p q)
      = ix2 (⟨win0_2.index t (0 : Fin 2) * 1024 + p.val, by have := p.isLt; omega⟩ : Fin 4096)
            (⟨win0_2.index t (1 : Fin 2) * 512 + q.val, by have := q.isLt; omega⟩ : Fin 4096) := by
    funext a; apply Fin.ext
    match a with
    | ⟨0, _⟩ => show win0_2.index t (0 : Fin 2) * 1024 + 1 * p.val = win0_2.index t (0 : Fin 2) * 1024 + p.val; omega
    | ⟨1, _⟩ => show win0_2.index t (1 : Fin 2) * 512 + 1 * q.val = win0_2.index t (1 : Fin 2) * 512 + q.val; omega
  rw [hrow, rowsDot_apply]
  unfold entry term
  refine Finset.sum_congr rfl fun k _ => ?_
  have h0 : iblk m c 0 t (ix2 p k) = V m c main_call0_v0
      (ix2 (⟨win0_2.index t (0 : Fin 2) * 1024 + p.val, by have := p.isLt; omega⟩ : Fin 4096) k) := by
    show V m c main_call0_v0 (((cfg0.win 0).blk t).view.emb (ix2 p k)) = _
    refine congrArg (V m c main_call0_v0) ?_
    funext a; apply Fin.ext
    match a with
    | ⟨0, _⟩ => show win0_0.index t (0 : Fin 2) * 1024 + 1 * p.val = win0_2.index t (0 : Fin 2) * 1024 + p.val; omega
    | ⟨1, _⟩ => show win0_0.index t (1 : Fin 2) * 4096 + 1 * k.val = k.val; omega
  have h1 : iblk m c 1 t (ix2 q k) = V m c main_arg1
      (ix2 (⟨win0_2.index t (1 : Fin 2) * 512 + q.val, by have := q.isLt; omega⟩ : Fin 4096) k) := by
    show V m c main_arg1 (((cfg0.win 1).blk t).view.emb (ix2 q k)) = _
    refine congrArg (V m c main_arg1) ?_
    funext a; apply Fin.ext
    match a with
    | ⟨0, _⟩ => show win0_1.index t (0 : Fin 2) * 512 + 1 * q.val = win0_2.index t (1 : Fin 2) * 512 + q.val; omega
    | ⟨1, _⟩ => show win0_1.index t (1 : Fin 2) * 4096 + 1 * k.val = k.val; omega
  rw [h0, h1]

/-- An index of the output is in point t's block when each coordinate is in the block's range on its axis. -/
theorem mem_blk (t : Fin cfg0.N) (i : S4096x4096.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_call0_v1).slice (win0_2.rect t)).set ↔ _
  rw [View.set_slice_whole, Rect.mem_set_unit]
  exact Iff.rfl

/-- The 32 blocks tile the output: index (r, s) is in the block of the point with i = r / 1024 and j = s / 512. -/
theorem cover (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ := idx_onto ⟨(i 0).val / 1024, by omega⟩ ⟨(i 1).val / 512, by omega⟩
  have q0 : win0_2.index t (0 : Fin 2) = (i 0).val / 1024 := congrFun ht 0
  have q1 : win0_2.index t (1 : Fin 2) = (i 1).val / 512 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 512 ≤ (i 1).val ∧ (i 1).val < win0_2.index t (1 : Fin 2) * 512 + 512; omega

/-- After the grid the output array is A · Bᵀ. -/
theorem final (c : Dev nD) :
    (dats m 0 c).arrAt 2 cfg0.N = rowsDot (V m c main_call0_v0) (V m c main_arg1) :=
  (dats m 0 c).arrAt_eq_of_cover 2 (rowsDot (V m c main_call0_v0) (V m c main_arg1)) (fun t _ => flushed_eq m c t) (cover)

/-- The host line before the grid: A is x with its leading axes merged. -/
theorem V_A (c : Dev nD) :
    (V m c main_call0_v0 : S4096x4096.Idx → EReal)
      = shapeCast S4096x4096 (m ((c : Thread nD τ).loc main_arg0)) Facts₀.shapeCasts_S8x512x4096_S4096x4096 := by
  show StableHlo.after hostOps0 (fun b => m (c, b)) (Proc.devRef .tc main_call0_v0) = _
  after_results
  rfl

/-- The host line after the grid: the result is the output array with its leading axis split. -/
theorem tail_eq (c : Dev nD) :
    (Pipeline.afterTail₀ cfgs (dats m) 0 (V0 m) [hostOps1] c main_v0 : S8x512x4096.Idx → EReal)
      = shapeCast S8x512x4096 ((dats m 0 c).arrAt 2 cfg0.N) Facts₀.shapeCasts_S4096x4096_S8x512x4096 := by
  unfold Pipeline.afterTail₀
  show StableHlo.after hostOps1 _ (Proc.devRef .tc main_v0) = _
  after_results
  exact congrArg (fun a => shapeCast S8x512x4096 a Facts₀.shapeCasts_S4096x4096_S8x512x4096)
    (Pipeline.withArrays_arr spec0 launch0.win.arr_inj c _ _ 2)

/-- The run, read: the result is the layer of the two arguments, which end unchanged. -/
theorem run : θ_run defs (onTc (τ := τ) (main (F := Ideal))) ⟨m, fun _ => 0, ρ⟩ fun r => ∀ c : Dev nD,
      r.2.mem ((c : Thread nD τ).loc main_v0)
        = layer Facts₀.shapeCasts_S8x512x4096_S4096x4096 Facts₀.shapeCasts_S4096x4096_S8x512x4096
            (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v0 (Pipeline.mem_restRefs_of main_v0 (by decide) (by decide))).trans
        ((tail_eq m c).trans (by rw [final, V_A, V_main_arg1]; rfl)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.Whole

end
-- ==== Proof.RefPieces.lean ====
/-
  The running-total program, one grid point at a time.

  Each point of its 16 × 8 × 4 grid holds a 256 × 512 running total T in a buffer that lives across points.  A point
  with stretch number 0 first resets T to zero; every point then replaces T by T + P, where P(p, q) is the sum of the
  products of row p of the point's block of A with row q of its block of B over the point's 1024 columns; a point
  with stretch number 3 finally copies the new T into its output block.  So, writing step T X Y for T + X · Yᵀ:
  a first point leaves step 0 X Y, a middle point step T X Y, and a last point step T X Y in both places.
-/
import proofs.«162733_g2000006501037958_pallasbulk_882_13_alg».proof.Proof.Gen.ReferenceIdeal.Frame
import Idealize.ShloMosaic.Lib.Pipeline.Value
import Idealize.ShloMosaic.Lib.Tactic

noncomputable section

namespace Cert.ReferenceIdeal.Pieces

open Cert.ReferenceIdeal Cert.ReferenceIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The zero block a first point resets the running total to. -/
abbrev zero : FVec F S256x512 .f32 := k0_pay1

/-- One point's update of the running total: T + X · Yᵀ over the point's stretch of columns. -/
abbrev step (T : Vec F S256x512 .f32) (X : Vec F S256x1024 .f32) (Y : Vec F S512x1024 .f32) : FVec F S256x512 .f32 :=
  k0_pay2 T X Y

/-- A first point (stretch 0) leaves the update of the zero block in the running total: it stores the zero block,
    reads it back, and stores the update. -/
theorem first_total (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S256x512 .f32) (harg5 : arg5.IsWhole) (arg6 : Memref sig .tc .vmem S256x512 .f32) (harg6 : arg6.IsWhole) (hc0 : cond0_0 i) (hc1 : ¬cond0_1 i) (x0 : Vec F S256x1024 .f32) (x1 : Vec F S512x1024 .f32) :
    sout0_A_0 c i arg3 harg3 arg4 harg4 arg5 harg5 arg6 harg6 hc0 hc1 x0 x1 = step zero x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S256x512) hz, View.readCov_unit_zero (S := S256x512) _ hz]
  simp only [View.readAt_eq_ld, harg3.read_unread, harg4.read_unread, View.ld_unit_zero (S := S256x1024) hz,
    View.ld_unit_zero (S := S512x1024) hz]

/-- A middle point (stretch 1 or 2) leaves the update of the total it found. -/
theorem middle_total (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S256x512 .f32) (harg5 : arg5.IsWhole) (arg6 : Memref sig .tc .vmem S256x512 .f32) (harg6 : arg6.IsWhole) (hc0 : ¬cond0_0 i) (hc1 : ¬cond0_1 i) (x0 : Vec F S256x1024 .f32) (x1 : Vec F S512x1024 .f32) (xs0 : Vec F S256x512 .f32) :
    sout0_B_0 c i arg3 harg3 arg4 harg4 arg5 harg5 arg6 harg6 hc0 hc1 x0 x1 xs0 = step xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero hz]
  simp only [View.readAt_eq_ld, harg3.read_unread, harg4.read_unread, harg6.read_unread, View.ld_unit_zero (S := S256x1024) hz,
    View.ld_unit_zero (S := S512x1024) hz, View.ld_unit_zero (S := S256x512) hz]

/-- A last point (stretch 3) leaves the update of the total it found in the running total, -/
theorem last_total (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S256x512 .f32) (harg5 : arg5.IsWhole) (arg6 : Memref sig .tc .vmem S256x512 .f32) (harg6 : arg6.IsWhole) (hc0 : ¬cond0_0 i) (hc1 : cond0_1 i) (x0 : Vec F S256x1024 .f32) (x1 : Vec F S512x1024 .f32) (xs0 : Vec F S256x512 .f32) :
    sout0_C_0 c i arg3 harg3 arg4 harg4 arg5 harg5 arg6 harg6 hc0 hc1 x0 x1 xs0 = step xs0 x0 x1 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread, View.ld_unit_zero (S := S256x1024) hz,
    View.ld_unit_zero (S := S512x1024) hz, View.ld_unit_zero (S := S256x512) hz]

/-- and the same in its output block: the block is a copy of the running total just stored. -/
theorem last_output (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S256x512 .f32) (harg5 : arg5.IsWhole) (arg6 : Memref sig .tc .vmem S256x512 .f32) (harg6 : arg6.IsWhole) (hc0 : ¬cond0_0 i) (hc1 : cond0_1 i) (x0 : Vec F S256x1024 .f32) (x1 : Vec F S512x1024 .f32) (xs0 : Vec F S256x512 .f32) :
    out0_C_2 c i arg3 harg3 arg4 harg4 arg5 harg5 arg6 harg6 hc0 hc1 x0 x1 xs0 = step xs0 x0 x1 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz, View.readCov_unit_zero (S := S256x512) _ hz]
  simp only [View.readAt_eq_ld, harg3.read_unread, harg4.read_unread, harg6.read_unread, View.ld_unit_zero (S := S256x1024) hz,
    View.ld_unit_zero (S := S512x1024) hz, View.ld_unit_zero (S := S256x512) hz]

end Cert.ReferenceIdeal.Pieces

end
-- ==== Proof.RefChain.lean ====
/-
  The running total after every grid point, in closed form.

  Number the 512 points in the order they run: point t = 32·i + 4·j + k has row block i = t / 32, column block
  j = t / 4 mod 8 and stretch k = t mod 4.  It reads rows 256·i … of A and rows 512·j … of B, both over the columns
  1024·k … 1024·k + 1023.  By induction on t, the running total after point t holds at (p, q) the sum of the first
  1024·(k + 1) terms of entry (256·i + p, 512·j + q) of A · Bᵀ: a point with k = 0 starts again from zero, and any other
  point adds its stretch of 1024 terms to what the point before left — the same entry, one stretch earlier.
-/
import proofs.«162733_g2000006501037958_pallasbulk_882_13_alg».proof.Proof.RefPieces
import proofs.«162733_g2000006501037958_pallasbulk_882_13_alg».proof.Proof.Spec
import proofs.«162733_g2000006501037958_pallasbulk_882_13_alg».proof.Proof.LibRowsDot

noncomputable section

open scoped BigOperators

namespace Cert.ReferenceIdeal.Chain

open Cert.ReferenceIdeal Cert.ReferenceIdeal.Gen Idealize.ShloMosaic Idealize.ShloMosaic.TcCoe Idealize.SL.Sem
open Idealize.ShloMosaic.ValueIdx
open Cert.LinearSpec Cert.ReferenceIdeal.Pieces

variable (m : (ℓ : Loc nD τ sig) → Buf (Elt Ideal) ℓ)

/-- A as the grid finds it: x with its leading axes merged. -/
def matA (c : Dev nD) : S4096x4096.Idx → EReal := V m c main_call0_v0
/-- B as the grid finds it: the weight. -/
def matB (c : Dev nD) : S4096x4096.Idx → EReal := V m c main_arg1

/-- The zero block is zero at every entry. -/
theorem zero_apply (p : Fin 256) (q : Fin 512) : zero (F := Ideal) (ix2 p q) = 0 := by
  unfold zero k0_pay1
  rw [shapeCast_self]
  exact Ideal.ofBits_zero_f32

/-- Entry (p, q) of an update: the old total's entry plus row p of X against row q of Y. -/
theorem step_apply (T : Vec Ideal S256x512 .f32) (X : Vec Ideal S256x1024 .f32) (Y : Vec Ideal S512x1024 .f32)
    (p : Fin 256) (q : Fin 512) :
    step (F := Ideal) T X Y (ix2 p q) = T (ix2 p q) + ∑ k : Fin 1024, X (ix2 p k) * Y (ix2 q k) := by
  unfold step k0_pay2
  simp only [shapeCast_self]
  exact congrArg (T (ix2 p q) + ·)
    (Cert.RowsDot.matmul_zero_apply Facts₀.dot_S256x1024_S512x1024_S256x512_1_1_0_0_n_n_wf none X Y p q)

/-- Where the windows' blocks sit at point t = 32·i + 4·j + k: A's block at (i, k), B's at (j, k), the output's at (i, j). -/
theorem idx_facts : ∀ t : Fin cfg0.N,
    win0_0.index t (0 : Fin 2) = t.val / 32 % 16 ∧ win0_0.index t (1 : Fin 2) = t.val % 4
    ∧ win0_1.index t (0 : Fin 2) = t.val / 4 % 8 ∧ win0_1.index t (1 : Fin 2) = t.val % 4
    ∧ win0_2.index t (0 : Fin 2) = t.val / 32 % 16 ∧ win0_2.index t (1 : Fin 2) = t.val / 4 % 8 :=
  (by decide +kernel : ∀ t : Fin grid0.N, _)

/-- The point's block of A at (p, k) is A at row 256·i + p and column 1024·k' + k. -/
theorem blockA_apply (c : Dev nD) (t : Fin cfg0.N) (p : Fin 256) (k : Fin 1024) :
    iblk m c 0 t (ix2 p k)
      = matA m c (ix2 (⟨t.val / 32 % 16 * 256 + p.val, by have := p.isLt; omega⟩ : Fin 4096)
                      (⟨t.val % 4 * 1024 + k.val, by have := k.isLt; omega⟩ : Fin 4096)) := by
  obtain ⟨e0, e1, -, -, -, -⟩ := idx_facts t
  show V m c main_call0_v0 (((cfg0.win 0).blk t).view.emb (ix2 p k)) = V m c main_call0_v0 _
  refine congrArg (V m c main_call0_v0) ?_
  funext a; apply Fin.ext
  match a with
  | ⟨0, _⟩ => show win0_0.index t (0 : Fin 2) * 256 + 1 * p.val = t.val / 32 % 16 * 256 + p.val; omega
  | ⟨1, _⟩ => show win0_0.index t (1 : Fin 2) * 1024 + 1 * k.val = t.val % 4 * 1024 + k.val; omega

/-- The point's block of B at (q, k) is B at row 512·j + q and column 1024·k' + k. -/
theorem blockB_apply (c : Dev nD) (t : Fin cfg0.N) (q : Fin 512) (k : Fin 1024) :
    iblk m c 1 t (ix2 q k)
      = matB m c (ix2 (⟨t.val / 4 % 8 * 512 + q.val, by have := q.isLt; omega⟩ : Fin 4096)
                      (⟨t.val % 4 * 1024 + k.val, by have := k.isLt; omega⟩ : Fin 4096)) := by
  obtain ⟨-, -, e2, e3, -, -⟩ := idx_facts t
  show V m c main_arg1 (((cfg0.win 1).blk t).view.emb (ix2 q k)) = V m c main_arg1 _
  refine congrArg (V m c main_arg1) ?_
  funext a; apply Fin.ext
  match a with
  | ⟨0, _⟩ => show win0_1.index t (0 : Fin 2) * 512 + 1 * q.val = t.val / 4 % 8 * 512 + q.val; omega
  | ⟨1, _⟩ => show win0_1.index t (1 : Fin 2) * 1024 + 1 * k.val = t.val % 4 * 1024 + k.val; omega

/-- The running total after point n, in closed form: at (p, q) the first 1024·(k + 1) terms of the entry of A · Bᵀ
    the point works on. -/
def total (c : Dev nD) (n : ℕ) : Vec Ideal S256x512 .f32 := fun j =>
  partialEntry (matA m c) (matB m c)
    ⟨n / 32 % 16 * 256 + (j 0).val, by have := idx2_lt0 j; omega⟩
    ⟨n / 4 % 8 * 512 + (j 1).val, by have := idx2_lt1 j; omega⟩
    ((n % 4 + 1) * 1024)

/-- Partial sums of the same entry up to the same position are equal, however the entry and position are written. -/
theorem partialEntry_congr (A B : SQ.Idx → EReal) {r r' s s' : Fin 4096} {n n' : ℕ}
    (hr : r.val = r'.val) (hs : s.val = s'.val) (hn : n = n') :
    partialEntry A B r s n = partialEntry A B r' s' n' := by
  obtain rfl := Fin.ext hr
  obtain rfl := Fin.ext hs
  subst hn
  rfl

/-- One point's update: if T holds, at every (p, q), the terms of the point's entries before the point's stretch,
    then the update holds the closed form at the point. -/
theorem step_total (c : Dev nD) (t : Fin cfg0.N) (T : Vec Ideal S256x512 .f32)
    (hT : ∀ (p : Fin 256) (q : Fin 512), T (ix2 p q)
      = partialEntry (matA m c) (matB m c)
          ⟨t.val / 32 % 16 * 256 + p.val, by have := p.isLt; omega⟩
          ⟨t.val / 4 % 8 * 512 + q.val, by have := q.isLt; omega⟩ (t.val % 4 * 1024)) :
    step (F := Ideal) T (iblk m c 0 t) (iblk m c 1 t) = total m c t.val := by
  funext j
  obtain ⟨p, q, rfl⟩ : ∃ (p : Fin 256) (q : Fin 512), j = ix2 p q := ⟨j 0, j 1, eq_ix2 j⟩
  refine (step_apply T (iblk m c 0 t) (iblk m c 1 t) p q).trans ?_
  rw [hT p q, Finset.sum_congr rfl (fun k _ => by rw [blockA_apply m c t p k, blockB_apply m c t q k])]
  refine (partialEntry_step (matA m c) (matB m c) _ _ (t.val % 4 * 1024) (by omega)).trans ?_
  exact partialEntry_congr _ _ rfl rfl (by omega)

/-- The running total after point n is the closed form: by induction on the point. -/
theorem total_eq (c : Dev nD) : ∀ (n : ℕ) (h : n < cfg0.N), (outsAt0 m c n h).2 = total m c n
  | 0, h => by
    rw [outsAt0_A m c ⟨0, h⟩ rfl (fun h' => absurd (show 0 % 4 = 3 from h') (by decide))]
    dsimp only
    refine (first_total (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) _ _ (iblk m c 0 ⟨0, h⟩) (iblk m c 1 ⟨0, h⟩)).trans ?_
    exact step_total m c ⟨0, h⟩ (zero (F := Ideal)) fun p q => (zero_apply p q).trans
      ((partialEntry_zero _ _ _ _).symm.trans (partialEntry_congr _ _ rfl rfl (by show 0 = 0 % 4 * 1024; rfl)))
  | n + 1, h => by
    have hN : n + 1 < 512 := lt_of_lt_of_eq h (show cfg0.N = 512 from N_0)
    by_cases h0 : (n + 1) % 4 = 0
    · have h1 : ¬(n + 1) % 4 = 3 := by omega
      rw [outsAt0_A m c ⟨n + 1, h⟩ h0 h1]
      dsimp only
      refine (first_total (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (iblk m c 0 ⟨n + 1, h⟩) (iblk m c 1 ⟨n + 1, h⟩)).trans ?_
      refine step_total m c ⟨n + 1, h⟩ (zero (F := Ideal)) fun p q => (zero_apply p q).trans ?_
      exact (partialEntry_zero _ _ _ _).symm.trans (partialEntry_congr _ _ rfl rfl (by show 0 = (n + 1) % 4 * 1024; omega))
    · have hprev : ∀ (p : Fin 256) (q : Fin 512), total m c n (ix2 p q)
          = partialEntry (matA m c) (matB m c)
              ⟨(n + 1) / 32 % 16 * 256 + p.val, by have := p.isLt; omega⟩
              ⟨(n + 1) / 4 % 8 * 512 + q.val, by have := q.isLt; omega⟩ ((n + 1) % 4 * 1024) := fun p q =>
        partialEntry_congr _ _ (by show n / 32 % 16 * 256 + p.val = (n + 1) / 32 % 16 * 256 + p.val; omega)
          (by show n / 4 % 8 * 512 + q.val = (n + 1) / 4 % 8 * 512 + q.val; omega) (by omega)
      by_cases h1 : (n + 1) % 4 = 3
      · rw [outsAt0_C m c ⟨n + 1, h⟩ h0 h1]
        dsimp only
        refine (last_total (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (iblk m c 0 ⟨n + 1, h⟩) (iblk m c 1 ⟨n + 1, h⟩) _).trans ?_
        show step (F := Ideal) (outsAt0 m c n (Nat.lt_of_succ_lt h)).2 (iblk m c 0 ⟨n + 1, h⟩) (iblk m c 1 ⟨n + 1, h⟩) = total m c (n + 1)
        rw [total_eq c n]
        exact step_total m c ⟨n + 1, h⟩ (total m c n) hprev
      · rw [outsAt0_B m c ⟨n + 1, h⟩ h0 h1]
        dsimp only
        refine (middle_total (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (iblk m c 0 ⟨n + 1, h⟩) (iblk m c 1 ⟨n + 1, h⟩) _).trans ?_
        show step (F := Ideal) (outsAt0 m c n (Nat.lt_of_succ_lt h)).2 (iblk m c 0 ⟨n + 1, h⟩) (iblk m c 1 ⟨n + 1, h⟩) = total m c (n + 1)
        rw [total_eq c n]
        exact step_total m c ⟨n + 1, h⟩ (total m c n) hprev

/-- At a last point the output block holds what the running total holds. -/
theorem output_eq (c : Dev nD) (t : Fin cfg0.N) (h0 : ¬t.val % 4 = 0) (h1 : t.val % 4 = 3) :
    (outsAt0 m c t.val t.isLt).1 = total m c t.val := by
  rw [← total_eq m c t.val t.isLt, outsAt0_C m c t h0 h1]
  dsimp only
  refine (last_output (F := Ideal) c (grid0.coords t) (ms0_0 t) (hs0_0 t) (ms0_1 t) (hs0_1 t) (ms0_2 t) (hs0_2 t) scM0_0 (Memref.isWhole_whole _) _ _ (iblk m c 0 t) (iblk m c 1 t) _).trans ?_
  exact (last_total (F := Ideal) c (grid0.coords t) (ms0_0 t) (hs0_0 t) (ms0_1 t) (hs0_1 t) (ms0_2 t) (hs0_2 t) scM0_0 (Memref.isWhole_whole _) _ _ (iblk m c 0 t) (iblk m c 1 t) _).symm

end Cert.ReferenceIdeal.Chain

end
-- ==== Proof.RefValue.lean ====
/-
  The running-total program, read as values.

  Only the points with stretch number 3 write an output block back, and what point t = 32·i + 4·j + 3 writes is the
  running total after all four stretches: at (p, q) all 4096 terms of entry (256·i + p, 512·j + q) of A · Bᵀ.  The
  128 blocks (i, j) tile the output, so after the run the output array is A · Bᵀ.  Around the grid the program merges
  the leading axes of x into A beforehand and splits the leading axis of the product afterwards.
-/
import proofs.«162733_g2000006501037958_pallasbulk_882_13_alg».proof.Proof.RefChain
import Idealize.ShloMosaic.Lib.Pipeline.Value
import Idealize.ShloMosaic.Lib.StableHlo.Run
import Idealize.ShloMosaic.Lib.Tactic

noncomputable section

open scoped BigOperators

namespace Cert.ReferenceIdeal.Whole

open Cert.ReferenceIdeal Cert.ReferenceIdeal.Gen Idealize.ShloMosaic Idealize.ShloMosaic.TcCoe Idealize.SL.Sem
open Idealize.ShloMosaic.Pipeline (Dat)
open Idealize.ShloMosaic.ValueIdx
open Cert.LinearSpec Cert.ReferenceIdeal.Chain

variable (m : (ℓ : Loc nD τ sig) → Buf (Elt Ideal) ℓ) (ρ : Dev nD → PrngReg)

/-- What a last point writes back is its block of A · Bᵀ. -/
theorem flushed_eq (c : Dev nD) (t : Fin cfg0.N) (hf : (cfg0.win 2).flush t = true) :
    (dats m 0 c).flushed 2 t
      = ((cfg0.win 2).blk t).view.read (Elt Ideal) (rowsDot (V m c main_call0_v0) (V m c main_arg1)) := by
  have h1 : t.val % 4 = 3 := (flush0_2 t).mp hf
  have h0 : ¬t.val % 4 = 0 := by omega
  show (cfg0.win 2).cut (grid0.coords t) ((dats m 0 c).after 2 t) = _
  rw [after0_2, output_eq m c t h0 h1]
  obtain ⟨-, -, -, -, e4, e5⟩ := idx_facts t
  funext j
  obtain ⟨p, q, rfl⟩ : ∃ (p : Fin 256) (q : Fin 512), j = ix2 p q := ⟨j 0, j 1, eq_ix2 j⟩
  show total m c t.val (ix2 p q)
    = rowsDot (V m c main_call0_v0) (V m c main_arg1) (((cfg0.win 2).blk t).view.emb (ix2 p q))
  have hrow : ((cfg0.win 2).blk t).view.emb (ix2 p q)
      = ix2 (⟨t.val / 32 % 16 * 256 + p.val, by have := p.isLt; omega⟩ : Fin 4096)
            (⟨t.val / 4 % 8 * 512 + q.val, by have := q.isLt; omega⟩ : Fin 4096) := by
    funext a; apply Fin.ext
    match a with
    | ⟨0, _⟩ => show win0_2.index t (0 : Fin 2) * 256 + 1 * p.val = t.val / 32 % 16 * 256 + p.val; omega
    | ⟨1, _⟩ => show win0_2.index t (1 : Fin 2) * 512 + 1 * q.val = t.val / 4 % 8 * 512 + q.val; omega
  rw [hrow, rowsDot_apply, ← partialEntry_full]
  exact partialEntry_congr _ _ rfl rfl (by omega)

/-- An index of the output is in point t's block when each coordinate is in the block's range on its axis. -/
theorem mem_blk (t : Fin cfg0.N) (i : S4096x4096.Idx) :
    i ∈ ((cfg0.win 2).blk t).view.set ↔ ∀ a : Fin 2, win0_2.index t a * S256x512.size a ≤ (i a).val ∧ (i a).val < win0_2.index t a * S256x512.size a + S256x512.size a := by
  show i ∈ ((View.whole main_call0_v1).slice (win0_2.rect t)).set ↔ _
  rw [View.set_slice_whole, Rect.mem_set_unit]
  exact Iff.rfl

/-- The 128 blocks tile the output: index (r, s) is in the block written back by the last point of row block r / 256
    and column block s / 512. -/
theorem cover (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  have hN : cfg0.N = 512 := N_0
  let t : Fin cfg0.N := ⟨(i 0).val / 256 * 32 + (i 1).val / 512 * 4 + 3, by rw [hN]; omega⟩
  have ht : t.val = (i 0).val / 256 * 32 + (i 1).val / 512 * 4 + 3 := rfl
  obtain ⟨-, -, -, -, e4, e5⟩ := idx_facts t
  refine ⟨t, (flush0_2 t).mpr (by omega), ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 512 ≤ (i 1).val ∧ (i 1).val < win0_2.index t (1 : Fin 2) * 512 + 512; omega

/-- After the grid the output array is A · Bᵀ. -/
theorem final (c : Dev nD) :
    (dats m 0 c).arrAt 2 cfg0.N = rowsDot (V m c main_call0_v0) (V m c main_arg1) :=
  (dats m 0 c).arrAt_eq_of_cover 2 (rowsDot (V m c main_call0_v0) (V m c main_arg1)) (fun t hf => flushed_eq m c t hf) (cover)

/-- The host line before the grid: A is x with its leading axes merged. -/
theorem V_A (c : Dev nD) :
    (V m c main_call0_v0 : S4096x4096.Idx → EReal)
      = shapeCast S4096x4096 (m ((c : Thread nD τ).loc main_arg0)) Facts₀.shapeCasts_S8x512x4096_S4096x4096 := by
  show StableHlo.after hostOps0 (fun b => m (c, b)) (Proc.devRef .tc main_call0_v0) = _
  after_results
  rfl

/-- The host line after the grid: the result is the output array with its leading axis split. -/
theorem tail_eq (c : Dev nD) :
    (Pipeline.afterTail₀ cfgs (dats m) 0 (V0 m) [hostOps1] c main_v0 : S8x512x4096.Idx → EReal)
      = shapeCast S8x512x4096 ((dats m 0 c).arrAt 2 cfg0.N) Facts₀.shapeCasts_S4096x4096_S8x512x4096 := by
  unfold Pipeline.afterTail₀
  show StableHlo.after hostOps1 _ (Proc.devRef .tc main_v0) = _
  after_results
  exact congrArg (fun a => shapeCast S8x512x4096 a Facts₀.shapeCasts_S4096x4096_S8x512x4096)
    (Pipeline.withArrays_arr spec0 launch0.win.arr_inj c _ _ 2)

/-- The run, read: the result is the layer of the two arguments, which end unchanged. -/
theorem run : θ_run defs (onTc (τ := τ) (main (F := Ideal))) ⟨m, fun _ => 0, ρ⟩ fun r => ∀ c : Dev nD,
      r.2.mem ((c : Thread nD τ).loc main_v0)
        = layer Facts₀.shapeCasts_S8x512x4096_S4096x4096 Facts₀.shapeCasts_S4096x4096_S8x512x4096
            (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v0 (Pipeline.mem_restRefs_of main_v0 (by decide) (by decide))).trans
        ((tail_eq m c).trans (by rw [final, V_A, V_main_arg1]; rfl)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.ReferenceIdeal.Whole

end
-- ==== Proof.lean ====
/-
  A bias-free linear layer, y = x · Wᵀ, computed two ways.

  x has shape (8, 512, 4096) and the weight W shape (4096, 4096), stored as (out, in).  Both programs merge the
  leading axes of x into a 4096 × 4096 matrix A, compute the 4096 × 4096 product A · Wᵀ on a grid, and split the
  leading axis of the product again.  Entry (r, s) of the product is Σ_{k < 4096} A(r, k) · W(s, k).

  * The first program works on 4 × 8 output blocks of 1024 × 512 and takes each entry's sum over all 4096 values of k
    at once (it first rounds both operands to a shorter float format, which changes nothing once floats are read as
    the numbers they stand for).
  * The second works on 16 × 8 output blocks of 256 × 512 and cuts the range of k into four stretches of 1024: a
    running total is reset to zero at the first stretch, each stretch's 1024 products are added to it, and after the
    fourth stretch it is copied to the output.

  Read over the extended reals both give the same entry: the running total after the stretches covering the first n
  values of k is the n-th partial sum of the entry, and the last partial sum is the entry.  This uses only that
  addition is associative and commutative with zero neutral, which holds for every extended real, so the
  precondition that the inputs are finite is never used for the values.  The first program is printed twice, once
  word by word and once for reading over the extended reals; the second printing differs in nothing, so there is
  nothing to justify between them.

  Each program runs to completion without a fault and leaves its two arguments as they were; for the values, each
  run is read as: the result array is the layer of the two argument arrays (Spec.lean: `layer`).
-/
import proofs.«162733_g2000006501037958_pallasbulk_882_13_alg».proof.Defs
import proofs.«162733_g2000006501037958_pallasbulk_882_13_alg».proof.Proof.Gen.Kernel
import proofs.«162733_g2000006501037958_pallasbulk_882_13_alg».proof.Proof.Gen.Kernel.Skeleton
import proofs.«162733_g2000006501037958_pallasbulk_882_13_alg».proof.Proof.Gen.Kernel.Launch
import proofs.«162733_g2000006501037958_pallasbulk_882_13_alg».proof.Proof.Gen.Kernel.Points
import proofs.«162733_g2000006501037958_pallasbulk_882_13_alg».proof.Proof.Gen.Kernel.Frame
import proofs.«162733_g2000006501037958_pallasbulk_882_13_alg».proof.Proof.Gen.KernelIdeal
import proofs.«162733_g2000006501037958_pallasbulk_882_13_alg».proof.Proof.Gen.KernelIdeal.Skeleton
import proofs.«162733_g2000006501037958_pallasbulk_882_13_alg».proof.Proof.Gen.KernelIdeal.Launch
import proofs.«162733_g2000006501037958_pallasbulk_882_13_alg».proof.Proof.Gen.KernelIdeal.Points
import proofs.«162733_g2000006501037958_pallasbulk_882_13_alg».proof.Proof.Gen.KernelIdeal.Frame
import proofs.«162733_g2000006501037958_pallasbulk_882_13_alg».proof.Proof.Gen.ReferenceIdeal
import proofs.«162733_g2000006501037958_pallasbulk_882_13_alg».proof.Proof.Gen.ReferenceIdeal.Skeleton
import proofs.«162733_g2000006501037958_pallasbulk_882_13_alg».proof.Proof.Gen.ReferenceIdeal.Launch
import proofs.«162733_g2000006501037958_pallasbulk_882_13_alg».proof.Proof.Gen.ReferenceIdeal.Points
import proofs.«162733_g2000006501037958_pallasbulk_882_13_alg».proof.Proof.Gen.ReferenceIdeal.Frame
import proofs.«162733_g2000006501037958_pallasbulk_882_13_alg».proof.Proof.Gen.Pre_finite_inputs
import proofs.«162733_g2000006501037958_pallasbulk_882_13_alg».proof.Proof.KernelValue
import proofs.«162733_g2000006501037958_pallasbulk_882_13_alg».proof.Proof.RefValue
import Idealize.ShloMosaic.Adequacy
import Idealize.ShloMosaic.Init

noncomputable section

namespace Cert.Proof

open Idealize.ShloMosaic Idealize.SL.Sem

/-- The word-level program runs and keeps its arguments. -/
theorem frame_kernel : Cert.frame_Kernel := fun m ρ _ => Cert.Kernel.Gen.frame m ρ

/-- So does the one-piece program over the extended reals. -/
theorem frame_kernelIdeal : Cert.frame_KernelIdeal := fun m ρ _ => Cert.KernelIdeal.Gen.frame m ρ

/-- So does the running-total program. -/
theorem frame_referenceIdeal : Cert.frame_ReferenceIdeal := fun m ρ _ => Cert.ReferenceIdeal.Gen.frame m ρ

/-- Nothing was rewritten between the two printings of the first program. -/
theorem preserves : Cert.preserves_Kernel_KernelIdeal := trivial

/-- From arguments that agree, both programs end with the layer of those arguments in the result. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun r h c => ⟨(h c).1.trans ?_, (h c).2⟩)
    (Cert.ReferenceIdeal.Whole.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
